-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2048x64 : Shape := ⟨2, ![2048, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S100000x64 .f32) (main_arg1 : FVec F S2048x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S100000x64 : Shape := ⟨2, ![100000, 64]⟩
abbrev S2048x64 : Shape := ⟨2, ![2048, 64]⟩
abbrev S_ : Shape := ⟨0, ![]⟩
abbrev S2048 : Shape := ⟨1, ![2048]⟩
abbrev S1x2048 : Shape := ⟨2, ![1, 2048]⟩
abbrev S100000x2048 : Shape := ⟨2, ![100000, 2048]⟩
abbrev S800x64 : Shape := ⟨2, ![800, 64]⟩
abbrev S800x2048 : Shape := ⟨2, ![800, 2048]⟩
abbrev S800 : Shape := ⟨1, ![800]⟩
abbrev S800x1 : Shape := ⟨2, ![800, 1]⟩

abbrev nBuf : Space → Nat
  | .hbm => 7
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2048x64, .f32⟩
  | .hbm, ⟨2, _⟩ => ⟨S2048x64, .f32⟩
  | .hbm, ⟨3, _⟩ => ⟨S_, .f32⟩
  | .hbm, ⟨4, _⟩ => ⟨S2048, .f32⟩
  | .hbm, ⟨5, _⟩ => ⟨S1x2048, .f32⟩
  | .hbm, ⟨6, _⟩ => ⟨S100000x2048, .f32⟩
  | .local _ .vmem, ⟨0, _⟩ => ⟨S800x64, .f32⟩
  | .local _ .vmem, ⟨1, _⟩ => ⟨S800x64, .f32⟩
  | .local _ .vmem, ⟨2, _⟩ => ⟨S2048x64, .f32⟩
  | .local _ .vmem, ⟨3, _⟩ => ⟨S1x2048, .f32⟩
  | .local _ .vmem, ⟨4, _⟩ => ⟨S800x2048, .f32⟩
  | .local _ .vmem, ⟨5, _⟩ => ⟨S800x2048, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S800x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S2048x64_S2048_d1 : S2048x64.ReducesTo [1] S2048
  h_S_ : 0 < S_.numel
  bcast_S2048_S1x2048_1 : S2048.BroadcastsInDim S1x2048 (![1] : Fin 1 → Fin S1x2048.rank)
  inb_S800x64_S800x64_0_0 : ∀ a, (![0, 0] : Fin 2 → Nat) a + S800x64.size a ≤ S800x64.size a
  h_S800x64 : 0 < S800x64.numel
  inb_S2048x64_S2048x64_0_0 : ∀ a, (![0, 0] : Fin 2 → Nat) a + S2048x64.size a ≤ S2048x64.size a
  h_S2048x64 : 0 < S2048x64.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S800x64_S800 : S800x64.Reduces [1] S800
  shapeCasts_S800_S800x1 : S800.ShapeCasts S800x1
  bitsLt_bf16_f32 : FTy.bits .bf16 < FTy.bits .f32
  broadcasts_S800x1_S800x2048 : S800x1.Broadcasts S800x2048
  broadcasts_S1x2048_S800x2048 : S1x2048.Broadcasts S800x2048
  inb_S800x2048_S800x2048_0_0 : ∀ a, (![0, 0] : Fin 2 → Nat) a + S800x2048.size a ≤ S800x2048.size a
  h_S800x2048 : 0 < S800x2048.numel
  dot_S800x64_S2048x64_S800x2048_1_1_0_0_n_n_wf : DotDims.WF S800x64 S2048x64 S800x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x64.size a ≤ S100000x64.size a
  hwx0_0 : ∀ i : grid0.Coords, EltTy.bits .f32 = 32 ∨ (Rect.block (s := S100000x64) S800x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .f32 = 32 ∨ (Rect.block (s := S2048x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S800x2048.size a ≤ S100000x2048.size a
  hwx0_3 : ∀ i : grid0.Coords, EltTy.bits .f32 = 32 ∨ (Rect.block (s := S100000x2048) S800x2048.size (cc0_transform_3 i) (hinb0_3 i)).WholeWords (EltTy.packing .f32)

variable [Facts₀]

def dot_S800x64_S2048x64_S800x2048_1_1_0_0_n_n : DotDims S800x64 S2048x64 S800x2048 where
  lhsContracting := [1]
  rhsContracting := [1]
  lhsNonContracting := [0]
  rhsNonContracting := [0]
  lhsBatch := []
  rhsBatch := []
  wf := dot_S800x64_S2048x64_S800x2048_1_1_0_0_n_n_wf

abbrev win0_0 : Pipeline.Window sig grid0 :=
  Pipeline.Window.ofSpec (Memref.whole main_arg0) S800x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S800x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2048x64 : Shape := ⟨2, ![2048, 64]⟩
abbrev S_ : Shape := ⟨0, ![]⟩
abbrev S100000 : Shape := ⟨1, ![100000]⟩
abbrev S100000x1 : Shape := ⟨2, ![100000, 1]⟩
abbrev S2048 : Shape := ⟨1, ![2048]⟩
abbrev S100000x2048 : Shape := ⟨2, ![100000, 2048]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2048x64, .f32⟩
  | .hbm, ⟨2, _⟩ => ⟨S100000x64, .f32⟩
  | .hbm, ⟨3, _⟩ => ⟨S_, .f32⟩
  | .hbm, ⟨4, _⟩ => ⟨S100000, .f32⟩
  | .hbm, ⟨5, _⟩ => ⟨S100000x1, .f32⟩
  | .hbm, ⟨6, _⟩ => ⟨S2048x64, .f32⟩
  | .hbm, ⟨7, _⟩ => ⟨S_, .f32⟩
  | .hbm, ⟨8, _⟩ => ⟨S2048, .f32⟩
  | .hbm, ⟨9, _⟩ => ⟨S100000x2048, .f32⟩
  | .hbm, ⟨10, _⟩ => ⟨S1x2048, .f32⟩
  | .hbm, ⟨11, _⟩ => ⟨S100000x2048, .f32⟩
  | .hbm, ⟨12, _⟩ => ⟨S100000x2048, .f32⟩
  | .hbm, ⟨13, _⟩ => ⟨S100000x2048, .f32⟩
  | .hbm, ⟨14, _⟩ => ⟨S_, .f32⟩
  | .hbm, ⟨15, _⟩ => ⟨S100000x2048, .f32⟩
  | .hbm, ⟨16, _⟩ => ⟨S100000x2048, .f32⟩
  | .hbm, ⟨17, _⟩ => ⟨S100000x2048, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S100000x64_S100000_d1 : S100000x64.ReducesTo [1] S100000
  h_S_ : 0 < S_.numel
  bcast_S100000_S100000x1_0 : S100000.BroadcastsInDim S100000x1 (![0] : Fin 1 → Fin S100000x1.rank)
  reducesTo_S2048x64_S2048_d1 : S2048x64.ReducesTo [1] S2048
  bcast_S2048_S1x2048_1 : S2048.BroadcastsInDim S1x2048 (![1] : Fin 1 → Fin S1x2048.rank)
  bcast_S100000x1_S100000x2048_0_1 : S100000x1.BroadcastsInDim S100000x2048 (![0, 1] : Fin 2 → Fin S100000x2048.rank)
  bcast_S1x2048_S100000x2048_0_1 : S1x2048.BroadcastsInDim S100000x2048 (![0, 1] : Fin 2 → Fin S100000x2048.rank)
  bcast_S_S100000x2048 : S_.BroadcastsInDim S100000x2048 (![] : Fin 0 → Fin S100000x2048.rank)
  dot_S100000x64_S2048x64_S100000x2048_1_1_0_0_n_n_wf : DotDims.WF S100000x64 S2048x64 S100000x2048 [1] [1] [0] [0] [] []

variable [Facts₀]

def dot_S100000x64_S2048x64_S100000x2048_1_1_0_0_n_n : DotDims S100000x64 S2048x64 S100000x2048 where
  lhsContracting := [1]
  rhsContracting := [1]
  lhsNonContracting := [0]
  rhsNonContracting := [0]
  lhsBatch := []
  rhsBatch := []
  wf := dot_S100000x64_S2048x64_S100000x2048_1_1_0_0_n_n_wf

class Facts : Prop extends Facts₀ where

variable [Facts]
-- ==== Proof.SqDist.lean ====
/-
  SQUARED EUCLIDEAN DISTANCES BETWEEN THE ROWS OF TWO MATRICES, AS ONE FUNCTION OF THE MATRICES.

  For a of shape [100000, 64] and b of shape [2048, 64] the array of squared distances has, at (r, q),

      |a_r|² + |b_q|² − 2 · ⟨a_r, b_q⟩,

  with |x_r|² the sum over k of x (r, k)², ⟨a_r, b_q⟩ the sum over k of a (r, k) · b (q, k), and the factor 2
  the number the float word 0x40000000 encodes. The three sums are taken in the extended reals, where + and ·
  are total; the two programs add and subtract in this very order, so no law beyond 0 + x = x is used and the
  entries may be any extended reals.
-/
import Idealize.ShloMosaic.PureOps.Ideal.Laws
import Idealize.ShloMosaic.Lib.ValueIdx

noncomputable section

open scoped BigOperators

namespace Cert.SqDist

open Idealize.ShloMosaic Idealize.ShloMosaic.ValueIdx

/-- The squared length of row r of a matrix with 64 columns: the sum over k of x (r, k)². -/
def rowSq {n : Nat} (x : (⟨2, ![n, 64]⟩ : Shape).Idx → EReal) (r : Fin n) : EReal :=
  ∑ k : Fin 64, x (ix2 r k) * x (ix2 r k)

/-- The inner product of row r of a with row q of b: the sum over k of a (r, k) · b (q, k). -/
def rowDot {n p : Nat} (a : (⟨2, ![n, 64]⟩ : Shape).Idx → EReal) (b : (⟨2, ![p, 64]⟩ : Shape).Idx → EReal)
    (r : Fin n) (q : Fin p) : EReal :=
  ∑ k : Fin 64, a (ix2 r k) * b (ix2 q k)

/-- The factor of the cross term: the number the float word of 2.0 encodes. -/
abbrev two : EReal := Ideal.ofBits .f32 0x40000000#32

/-- The squared distance between row r of a and row q of b, in the order both programs compute it. -/
def cell (a : (⟨2, ![100000, 64]⟩ : Shape).Idx → EReal) (b : (⟨2, ![2048, 64]⟩ : Shape).Idx → EReal)
    (r : Fin 100000) (q : Fin 2048) : EReal :=
  (rowSq a r + rowSq b q) - two * rowDot a b r q

/-- The whole array of squared distances. -/
def sqDist (a : (⟨2, ![100000, 64]⟩ : Shape).Idx → EReal) (b : (⟨2, ![2048, 64]⟩ : Shape).Idx → EReal) :
    (⟨2, ![100000, 2048]⟩ : Shape).Idx → EReal :=
  fun i => cell a b (i 0) (i 1)

theorem sqDist_ix2 (a : (⟨2, ![100000, 64]⟩ : Shape).Idx → EReal) (b : (⟨2, ![2048, 64]⟩ : Shape).Idx → EReal)
    (r : Fin 100000) (q : Fin 2048) : sqDist a b (ix2 r q) = cell a b r q := rfl

end Cert.SqDist

end
-- ==== Proof.LibTransDot.lean ====
/-
  A PRODUCT WITH THE WEIGHT'S SECOND AXIS CONTRACTED (x · Wᵀ), AS A SUM.

  einsum 'de,ne->nd' and 'de,nke->nkd' contract the activations' last axis with the weight's LAST axis: the result
  at (n, d), or (n, k, d), is the sum over e of the activation's (n, e), or (n, k, e), times the weight's (d, e).
-/
import Idealize.ShloMosaic.PureOps.Ideal.Laws
import Idealize.ShloMosaic.Lib.ValueIdx

noncomputable section

open scoped BigOperators

namespace Cert.Lib

open Idealize.ShloMosaic Idealize.ShloMosaic.ValueIdx

section Rank2

variable {M K N : Nat} (d : DotDims ⟨2, ![M, K]⟩ ⟨2, ![N, K]⟩ ⟨2, ![M, N]⟩)

theorem t2_lhs_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

theorem t2_rhs_row (hln : d.lhsNonContracting = [0]) (hrn : d.rhsNonContracting = [0]) (hlb : d.lhsBatch = [])
    (hrb : d.rhsBatch = []) (j : (⟨2, ![M, N]⟩ : Shape).Idx) (k : d.contr.Idx) :
    (d.rhsIdx j k (0 : Fin 2)).val = (j (1 : Fin 2)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

theorem t2_contr_rank (hl : d.lhsContracting = [1]) : d.contr.rank = 1 := by rw [d.rank_contr, hl]; rfl

theorem t2_contr_size (hl : d.lhsContracting = [1]) :
    d.contr.size ⟨0, by rw [t2_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ at (p, n): the sum over k of x (p, k) · W (n, k). -/
theorem sum_contr_t2 {α : Type*} [AddCommMonoid α] (hl : d.lhsContracting = [1]) (hr : d.rhsContracting = [1])
    (hln : d.lhsNonContracting = [0]) (hrn : d.rhsNonContracting = [0]) (hlb : d.lhsBatch = []) (hrb : d.rhsBatch = [])
    (f : (⟨2, ![M, K]⟩ : Shape).Idx → (⟨2, ![N, K]⟩ : Shape).Idx → α) (p : Fin M) (n : Fin N) :
    ∑ k : d.contr.Idx, f (d.lhsIdx (ix2 p n) k) (d.rhsIdx (ix2 p n) k) = ∑ k : Fin K, f (ix2 p k) (ix2 n k) := by
  have hrk := t2_contr_rank d hl
  have hs := t2_contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact t2_lhs_row d hln hlb _ _
    | ⟨1, _⟩ => exact (d.lhsIdx_val_of_single hl _ _).trans (contrEquiv1_symm_val d K hrk hs k)
  have e2 : d.rhsIdx (ix2 p n) ((contrEquiv1 d K hrk hs).symm k) = ix2 n k := by
    funext a; apply Fin.ext
    match a with
    | ⟨0, _⟩ => exact t2_rhs_row d hln hrn hlb hrb _ _
    | ⟨1, _⟩ => exact (d.rhsIdx_val_of_single hr _ _).trans (contrEquiv1_symm_val d K hrk hs k)
  rw [e1, e2]

theorem dotGeneral_t2_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (r : Fin M) (q : Fin N) :
    Host.dotGeneral d prec a b (ix2 r q) = ∑ p : Fin K, a (ix2 r p) * b (ix2 q p) :=
  (Ideal.dotGeneral_apply d prec .single a b (ix2 r q)).trans
    (sum_contr_t2 d hl hr hln hrn hlb hrb (fun i j => a i * b j) r q)

end Rank2

section Rank3

variable {A B K N : Nat} (d : DotDims ⟨3, ![A, B, K]⟩ ⟨2, ![N, K]⟩ ⟨3, ![A, B, N]⟩)

theorem t3_lhs_0 (hln : d.lhsNonContracting = [0, 1]) (hlb : d.lhsBatch = [])
    (j : (⟨3, ![A, B, N]⟩ : Shape).Idx) (k : d.contr.Idx) : (d.lhsIdx j k (0 : Fin 3)).val = (j (0 : Fin 3)).val := by
  have hb : (0 : Fin 3) ∉ d.lhsBatch := by rw [hlb]; exact List.not_mem_nil
  have hn : (0 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_lhs_1 (hln : d.lhsNonContracting = [0, 1]) (hlb : d.lhsBatch = [])
    (j : (⟨3, ![A, B, N]⟩ : Shape).Idx) (k : d.contr.Idx) : (d.lhsIdx j k (1 : Fin 3)).val = (j (1 : Fin 3)).val := by
  have hb : (1 : Fin 3) ∉ d.lhsBatch := by rw [hlb]; exact List.not_mem_nil
  have hn : (1 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_rhs_row (hln : d.lhsNonContracting = [0, 1]) (hrn : d.rhsNonContracting = [0]) (hlb : d.lhsBatch = [])
    (hrb : d.rhsBatch = []) (j : (⟨3, ![A, B, N]⟩ : Shape).Idx) (k : d.contr.Idx) :
    (d.rhsIdx j k (0 : Fin 2)).val = (j (2 : Fin 3)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln, hrn]; rfl)

theorem t3_contr_rank (hl : d.lhsContracting = [2]) : d.contr.rank = 1 := by rw [d.rank_contr, hl]; rfl

theorem t3_contr_size (hl : d.lhsContracting = [2]) :
    d.contr.size ⟨0, by rw [t3_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ over a slab at (a, b, n): the sum over k of x (a, b, k) · W (n, k). -/
theorem sum_contr_t3 {α : Type*} [AddCommMonoid α] (hl : d.lhsContracting = [2]) (hr : d.rhsContracting = [1])
    (hln : d.lhsNonContracting = [0, 1]) (hrn : d.rhsNonContracting = [0]) (hlb : d.lhsBatch = []) (hrb : d.rhsBatch = [])
    (f : (⟨3, ![A, B, K]⟩ : Shape).Idx → (⟨2, ![N, K]⟩ : Shape).Idx → α) (a : Fin A) (b : Fin B) (n : Fin N) :
    ∑ k : d.contr.Idx, f (d.lhsIdx (ix3 a b n) k) (d.rhsIdx (ix3 a b n) k) = ∑ k : Fin K, f (ix3 a b k) (ix2 n k) := by
  have hrk := t3_contr_rank d hl
  have hs := t3_contr_size d hl
  rw [← Equiv.sum_comp (contrEquiv1 d K hrk hs).symm]
  refine Finset.sum_congr rfl fun k _ => ?_
  have e1 : d.lhsIdx (ix3 a b n) ((contrEquiv1 d K hrk hs).symm k) = ix3 a b k := by
    funext c; apply Fin.ext
    match c with
    | ⟨0, _⟩ => exact t3_lhs_0 d hln hlb _ _
    | ⟨1, _⟩ => exact t3_lhs_1 d hln hlb _ _
    | ⟨2, _⟩ => exact (d.lhsIdx_val_of_single hl _ _).trans (contrEquiv1_symm_val d K hrk hs k)
  have e2 : d.rhsIdx (ix3 a b n) ((contrEquiv1 d K hrk hs).symm k) = ix2 n k := by
    funext c; apply Fin.ext
    match c with
    | ⟨0, _⟩ => exact t3_rhs_row d hln hrn hlb hrb _ _
    | ⟨1, _⟩ => exact (d.rhsIdx_val_of_single hr _ _).trans (contrEquiv1_symm_val d K hrk hs k)
  rw [e1, e2]

theorem dotGeneral_t3_at (hl : d.lhsContracting = [2]) (hr : d.rhsContracting = [1])
    (hln : d.lhsNonContracting = [0, 1]) (hrn : d.rhsNonContracting = [0]) (hlb : d.lhsBatch = []) (hrb : d.rhsBatch = [])
    {φ₁ φ₂ : FTy} (prec : Option ContractPrecision) (x : FVec Ideal ⟨3, ![A, B, K]⟩ φ₁) (w : FVec Ideal ⟨2, ![N, K]⟩ φ₂)
    (a : Fin A) (b : Fin B) (q : Fin N) :
    Host.dotGeneral d prec x w (ix3 a b q) = ∑ p : Fin K, x (ix3 a b p) * w (ix2 q p) :=
  (Ideal.dotGeneral_apply d prec .single x w (ix3 a b q)).trans
    (sum_contr_t3 d hl hr hln hrn hlb hrb (fun i j => x i * w j) a b q)

end Rank3

end Cert.Lib

end
-- ==== Proof.LibColBroadcast.lean ====
/-
  A COLUMN BROADCAST ACROSS COLUMNS, READ AT AN ELEMENT.

  An array of shape [a, 1] — one number per row — broadcast to shape [a, b] holds, at (p, c), the number of row p,
  whatever the column c.
-/
import Idealize.ShloMosaic.Lib.Pipeline.Value
import Idealize.ShloMosaic.Lib.ValueIdx

noncomputable section

namespace Cert.Lib

open Idealize.ShloMosaic Idealize.ShloMosaic.ValueIdx

/-- A column of a numbers broadcast to an a-by-b array reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Tile.lean ====
/-
  WHAT THE BODY COMPUTES FOR ONE TILE OF 800 ROWS, ENTRY BY ENTRY.

  The body holds a tile x of 800 rows of the first matrix, the whole second matrix y (2048 rows) and a row s of 2048
  numbers (the squared lengths of y's rows, computed outside). Its one stored value has, at (p, q),

      (|x_p|² + s (0, q)) − 2 · ⟨x_p, y_q⟩ :

  the lane sum of x ∘ x is the sum over the 64 columns; recast as a column and broadcast across the 2048 columns it is
  |x_p|² at every (p, q); the row s broadcast down the 800 rows is s (0, q); the matrix product contracts the two
  operands' second axes, and the change of float format before it is the identity on extended reals.
-/
import proofs.«153480_j36129264894473_2_alg».proof.Proof.Gen.KernelIdeal.Skeleton
import proofs.«153480_j36129264894473_2_alg».proof.Proof.SqDist
import proofs.«153480_j36129264894473_2_alg».proof.Proof.LibTransDot
import proofs.«153480_j36129264894473_2_alg».proof.Proof.LibColBroadcast
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.SqDist Cert.Lib

/-- A vector of a numbers recast as an a-by-1 column reads, at (p, 0), the vector's entry p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum along the 64 columns of an 800-by-64 tile, at row p. -/
theorem rowSum_at (src : FVec Ideal S800x64 .f32) (h : S800x64.Reduces [1] S800) (hφ : FKind.Formats .f32)
    (hacc : (0x00000000#32 : BitVec 32) = 0x00000000#32) (p : Fin 800) :
    multiReduction .add [1] S800 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src ?_
  funext c; apply Fin.ext
  match c with
  | ⟨0, _⟩ => rfl
  | ⟨1, _⟩ => rfl

/-- The tile times the second matrix transposed, into a zero accumulator, at (p, q): the sum over the 64 columns of
    the products of row p's and row q's entries. -/
theorem cross_at (l : FVec Ideal S800x64 .bf16) (r : FVec Ideal S2048x64 .bf16) (p : Fin 800) (q : Fin 2048) :
    matmul dot_S800x64_S2048x64_S800x2048_1_1_0_0_n_n none l r (constant S800x2048 .f32 0x00000000#32) (ix2 p q)
      = ∑ k : Fin 64, l (ix2 p k) * r (ix2 q k) :=
  (Ideal.matmul_constant_zero_apply dot_S800x64_S2048x64_S800x2048_1_1_0_0_n_n none l r (ix2 p q)).trans
    (sum_contr_t2 dot_S800x64_S2048x64_S800x2048_1_1_0_0_n_n rfl rfl rfl rfl rfl rfl (fun i j => l i * r j) p q)

/-- THE TILE'S RESULT at (p, q). -/
theorem tile_at (v0 : Vec Ideal S800x64 .f32) (v1 : Vec Ideal S2048x64 .f32) (v2 : Vec Ideal S1x2048 .f32)
    (p : Fin 800) (q : Fin 2048) :
    k0_pay1 v0 v1 v2 (ix2 p q) = (rowSq v0 p + v2 (ix2 (0 : Fin 1) q)) - two * rowDot v0 v1 p q := by
  unfold k0_pay1
  simp only [subf_apply, addf_apply, mulf_apply, broadcast_apply]
  rw [broadcastTo_a1_ab_apply, shapeCast_a_a1_apply, rowSum_at, broadcastTo_1b_ab_apply, shapeCast_self, cross_at]
  rfl

end Cert.KernelIdeal.Tile

end
-- ==== Proof.Whole.lean ====
/-
  FROM TILES TO THE WHOLE ARRAY.

  The grid has 125 points; point t works on rows 800·t … 800·t + 799 of the first matrix, on the whole second
  matrix, and on the row of the second matrix's squared row lengths that the host operations before the launch
  computed (0 + Σ_k b (q, k)², broadcast to one row of 2048). What point t writes back is rows 800·t … 800·t + 799 of
  the array of squared distances; the 125 tiles cover all 100000 rows (row r lies in tile r / 800), so after the run
  the output array is the array of squared distances of the two arguments.
-/
import proofs.«153480_j36129264894473_2_alg».proof.Proof.Gen.KernelIdeal.Value
import proofs.«153480_j36129264894473_2_alg».proof.Proof.Tile
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.SqDist
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index of each window at grid point t: the tile of the first matrix and of the output move down with t,
    the second matrix and the row of squared lengths stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_N (t : Fin cfg0.N) : t.val < 125 := t.isLt.trans_eq N_0

/-- Row p of tile t is row 800·t + p of the array. -/
def row (t : Fin cfg0.N) (p : Fin 800) : Fin 100000 :=
  ⟨t.val * 800 + p.val, by have := lt_N t; have := p.isLt; omega⟩

/-! ## The row of squared lengths the host computes before the launch -/

/-- The host's sum of squares along the 64 columns, started from the float word of zero and laid out as one row, is at
    (0, q) the squared length of row q. -/
theorem sqRow_at (b : FVec Ideal S2048x64 .f32) (q : Fin 2048) :
    broadcastInDim S1x2048 ![1] bcast_S2048_S1x2048_1
        (Host.reduceAdd (F := Ideal) (mulf b b) (constant (F := Ideal) S_ .f32 0x00000000#32)
          reducesTo_S2048x64_S2048_d1 h_S_) (ix2 (0 : Fin 1) q)
      = rowSq b q := by
  refine (broadcastInDim_apply _ bcast_S2048_S1x2048_1 _ (ix2 (0 : Fin 1) q) (ix1 q) (fun a => match a with
    | ⟨0, _⟩ => by show q.val = if (2048 : Nat) = 1 then 0 else q.val; rw [if_neg (by decide)])).trans ?_
  simp only [Host.reduceAdd, Ideal.hostReduceAdd_def]
  rw [Ideal.hostReduceAdd_single reducesTo_S2048x64_S2048_d1 (by decide)]
  show Ideal.ofBits .f32 0x00000000#32 + _ = _
  rw [Ideal.ofBits_zero_f32, zero_add]
  refine Finset.sum_congr rfl fun k _ => ?_
  refine congrArg (fun i => b i * b i) ?_
  exact funext fun a => Fin.ext (by match a with | ⟨0, _⟩ => rfl | ⟨1, _⟩ => rfl)

/-- The third window's array, as the launch finds it, is that row of the second argument. -/
theorem V_sqRow (c : Dev nD) :
    (V m c main_v2 : S1x2048.Idx → EReal)
      = broadcastInDim S1x2048 ![1] bcast_S2048_S1x2048_1
        (Host.reduceAdd (F := Ideal) (mulf (m ((c : Thread nD τ).loc main_arg1)) (m ((c : Thread nD τ).loc main_arg1)))
          (constant (F := Ideal) S_ .f32 0x00000000#32) reducesTo_S2048x64_S2048_d1 h_S_) := by
  dsimp only [Gen.V, Gen.hostOps0]; after_results

/-! ## The blocks at point t -/

/-- The first window's block at t, at (p, k), is the first argument at (800·t + p, k). -/
theorem read0 (c : Dev nD) (t : Fin cfg0.N) (p : Fin 800) (k : Fin 64) :
    iblk m c 0 t (ix2 p k) = m ((c : Thread nD τ).loc main_arg0) (ix2 (row t p) k) := by
  show V m c main_arg0 (((cfg0.win 0).blk t).view.emb (ix2 p k)) = _
  rw [V_main_arg0]
  refine congrArg (m ((c : Thread nD τ).loc main_arg0)) ?_
  obtain ⟨e0, e1, -⟩ := idx_facts t
  funext a; apply Fin.ext
  match a with
  | ⟨0, _⟩ => show win0_0.index t (0 : Fin 2) * 800 + 1 * p.val = t.val * 800 + p.val; omega
  | ⟨1, _⟩ => show win0_0.index t (1 : Fin 2) * 64 + 1 * k.val = k.val; omega

/-- The second window's block at any t is the whole second argument. -/
theorem read1 (c : Dev nD) (t : Fin cfg0.N) (q : Fin 2048) (k : Fin 64) :
    iblk m c 1 t (ix2 q k) = m ((c : Thread nD τ).loc main_arg1) (ix2 q k) := by
  show V m c main_arg1 (((cfg0.win 1).blk t).view.emb (ix2 q k)) = _
  rw [V_main_arg1]
  refine congrArg (m ((c : Thread nD τ).loc main_arg1)) ?_
  obtain ⟨-, -, e0, e1, -⟩ := idx_facts t
  funext a; apply Fin.ext
  match a with
  | ⟨0, _⟩ => show win0_1.index t (0 : Fin 2) * 2048 + 1 * q.val = q.val; omega
  | ⟨1, _⟩ => show win0_1.index t (1 : Fin 2) * 64 + 1 * k.val = k.val; omega

/-- The third window's block at any t, at (0, q), is the squared length of row q of the second argument. -/
theorem read2 (c : Dev nD) (t : Fin cfg0.N) (q : Fin 2048) :
    iblk m c 2 t (ix2 (0 : Fin 1) q) = rowSq (m ((c : Thread nD τ).loc main_arg1)) q := by
  show V m c main_v2 (((cfg0.win 2).blk t).view.emb (ix2 (0 : Fin 1) q)) = _
  have e : ((cfg0.win 2).blk t).view.emb (ix2 (0 : Fin 1) q) = ix2 (0 : Fin 1) q := by
    obtain ⟨-, -, -, -, e0, e1, -⟩ := idx_facts t
    funext a; apply Fin.ext
    match a with
    | ⟨0, _⟩ => show win0_2.index t (0 : Fin 2) * 1 + 1 * 0 = 0; omega
    | ⟨1, _⟩ => show win0_2.index t (1 : Fin 2) * 2048 + 1 * q.val = q.val; omega
  rw [e, V_sqRow]
  exact sqRow_at _ q

/-- The output window's block at t places (p, q) at (800·t + p, q). -/
theorem emb3 (t : Fin cfg0.N) (p : Fin 800) (q : Fin 2048) :
    ((cfg0.win 3).blk t).view.emb (ix2 p q) = ix2 (row t p) q := by
  obtain ⟨-, -, -, -, -, -, e0, e1⟩ := idx_facts t
  funext a; apply Fin.ext
  match a with
  | ⟨0, _⟩ => show win0_3.index t (0 : Fin 2) * 800 + 1 * p.val = t.val * 800 + p.val; omega
  | ⟨1, _⟩ => show win0_3.index t (1 : Fin 2) * 2048 + 1 * q.val = q.val; omega

/-! ## What point t writes back -/

/-- POINT t WRITES BACK rows 800·t … 800·t + 799 of the array of squared distances of the two arguments. -/
theorem flushed_eq (c : Dev nD) (t : Fin cfg0.N) :
    (dats m 0 c).flushed 3 t = ((cfg0.win 3).blk t).view.read (Elt Ideal)
      (sqDist (m ((c : Thread nD τ).loc main_arg0)) (m ((c : Thread nD τ).loc main_arg1))) := by
  rw [Value.flushed3]
  unfold out0_3
  rw [View.canon_unit_zero hz]
  simp only [View.ld_unit_zero (S := S800x64) hz, View.ld_unit_zero (S := S2048x64) hz, View.ld_unit_zero (S := S1x2048) hz]
  funext j
  obtain ⟨p, q, rfl⟩ : ∃ (p : Fin 800) (q : Fin 2048), j = ix2 p q := ⟨j 0, j 1, eq_ix2 j⟩
  show k0_pay1 (iblk m c 0 t) (iblk m c 1 t) (iblk m c 2 t) (ix2 p q)
    = sqDist (m ((c : Thread nD τ).loc main_arg0)) (m ((c : Thread nD τ).loc main_arg1)) (((cfg0.win 3).blk t).view.emb (ix2 p q))
  rw [emb3 t p q, sqDist_ix2]
  refine (Tile.tile_at (iblk m c 0 t) (iblk m c 1 t) (iblk m c 2 t) p q).trans ?_
  unfold cell rowSq rowDot
  rw [read2 m c t q]
  simp only [read0 m c t p, read1 m c t q]
  rfl

/-! ## The cover, and the array after the run -/

/-- An index of the output array is in point t's block iff each coordinate is in the block's range on its axis. -/
theorem mem_blk (t : Fin cfg0.N) (i : S100000x2048.Idx) :
    i ∈ ((cfg0.win 3).blk t).view.set ↔ ∀ a : Fin 2, win0_3.index t a * S800x2048.size a ≤ (i a).val
      ∧ (i a).val < win0_3.index t a * S800x2048.size a + S800x2048.size a := by
  show i ∈ ((View.whole main_v3).slice (win0_3.rect t)).set ↔ _
  rw [View.set_slice_whole, Rect.mem_set_unit]
  exact Iff.rfl

/-- Every index (r, q) of the output array is in the block of point r / 800. -/
theorem cover (i : S100000x2048.Idx) :
    ∃ t : Fin cfg0.N, (cfg0.win 3).flush t = true ∧ i ∈ ((cfg0.win 3).blk t).view.set := by
  have hi0 : (i 0).val < 100000 := (i 0).isLt
  have hi1 : (i 1).val < 2048 := (i 1).isLt
  obtain ⟨t, ht⟩ : ∃ t : Fin cfg0.N, t.val = (i 0).val / 800 :=
    ⟨⟨(i 0).val / 800, by rw [show cfg0.N = 125 from N_0]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 800 ≤ (i 0).val ∧ (i 0).val < win0_3.index t (0 : Fin 2) * 800 + 800
    omega
  | ⟨1, _⟩ =>
    show win0_3.index t (1 : Fin 2) * 2048 ≤ (i 1).val ∧ (i 1).val < win0_3.index t (1 : Fin 2) * 2048 + 2048
    omega

/-- THE OUTPUT ARRAY after the run is the array of squared distances of the two arguments. -/
theorem final (c : Dev nD) :
    (dats m 0 c).arrAt 3 cfg0.N
      = sqDist (m ((c : Thread nD τ).loc main_arg0)) (m ((c : Thread nD τ).loc main_arg1)) :=
  (dats m 0 c).arrAt_eq_of_cover 3 _ (fun t _ => flushed_eq m c t) cover

/-- The run: every weakly fair execution ends with the result at the squared distances and the arguments unchanged. -/
theorem run : θ_run defs (onTc (τ := τ) (main (F := Ideal))) ⟨m, fun _ => 0, ρ⟩ fun r => ∀ c : Dev nD,
      r.2.mem ((c : Thread nD τ).loc main_v3)
        = sqDist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefDist.lean ====
/-
  THE REFERENCE COMPUTES THE SQUARED DISTANCES.

  Read one operation at a time, the reference's result at (r, q) is

      ((0 + Σ_k a (r, k)²) + (0 + Σ_k b (q, k)²)) − 2 · Σ_k a (r, k) · b (q, k) :

  each squared length is a host sum started from the float word of zero, carried to (r, q) by broadcasts that only
  re-index; the product contracts the second axes of both matrices. With 0 + x = x this is the array of squared
  distances.
-/
import proofs.«153480_j36129264894473_2_alg».proof.Proof.Gen.ReferenceIdeal.Read
import proofs.«153480_j36129264894473_2_alg».proof.Proof.SqDist

noncomputable section

open scoped BigOperators

namespace Cert.ReferenceIdeal.RefDist

open Cert.ReferenceIdeal Cert.ReferenceIdeal.Read Idealize.ShloMosaic Idealize.ShloMosaic.ValueIdx Cert.SqDist

/-- The entry of the first matrix that the first squared length's k-th term reads at (r, q): (r, k). -/
theorem idx_sq1 (r : Fin 100000) (q : Fin 2048) (k : Fin 64) :
    idx_main_v1 (idx_main_v2 (idx_main_v7 (ix2 r q))) k = ix2 r k :=
  funext fun a => Fin.ext (by match a with | ⟨0, _⟩ => rfl | ⟨1, _⟩ => rfl)

/-- The entry of the second matrix that the second squared length's k-th term reads at (r, q): (q, k). -/
theorem idx_sq2 (r : Fin 100000) (q : Fin 2048) (k : Fin 64) :
    idx_main_v4 (idx_main_v6 (idx_main_v8 (ix2 r q))) k = ix2 q k :=
  funext fun a => Fin.ext (by match a with | ⟨0, _⟩ => rfl | ⟨1, _⟩ => rfl)

/-- The two entries the product's k-th term reads at (r, q): (r, k) and (q, k). -/
theorem idx_dot_l (r : Fin 100000) (q : Fin 2048) (k : Fin 64) : lidx_main_v5 (ix2 r q) k = ix2 r k :=
  funext fun a => Fin.ext (by match a with | ⟨0, _⟩ => rfl | ⟨1, _⟩ => rfl)
theorem idx_dot_r (r : Fin 100000) (q : Fin 2048) (k : Fin 64) : ridx_main_v5 (ix2 r q) k = ix2 q k :=
  funext fun a => Fin.ext (by match a with | ⟨0, _⟩ => rfl | ⟨1, _⟩ => rfl)

/-- THE REFERENCE'S RESULT is the array of squared distances of its two arguments. -/
theorem ref_eq (x0 : (⟨S100000x64, .f32⟩ : BufTy).Contents (Elt Ideal)) (x1 : (⟨S2048x64, .f32⟩ : BufTy).Contents (Elt Ideal)) :
    val_main_v12 (F := Ideal) x0 x1 = sqDist x0 x1 := by
  funext i
  obtain ⟨r, q, rfl⟩ : ∃ (r : Fin 100000) (q : Fin 2048), i = ix2 r q := ⟨i 0, i 1, eq_ix2 i⟩
  rw [val_main_v12_apply, val_main_v9_apply, val_main_v11_apply, val_main_v7_apply, val_main_v8_apply,
    val_main_v2_apply, val_main_v6_apply, val_main_v1_apply, val_main_v4_apply, val_main_v10_apply,
    val_main_v5_apply]
  simp only [val_main_v0_apply, val_main_v3_apply, val_main_cst_apply, val_main_cst_0_apply, val_main_cst_1_apply,
    idx_sq1, idx_sq2, idx_dot_l, idx_dot_r, Ideal.subf_def, Ideal.addf_def, Ideal.mulf_def, Ideal.ofBits_def,
    Ideal.ofBits_zero_f32, zero_add]
  rfl

end Cert.ReferenceIdeal.RefDist

end
-- ==== Proof.lean ====
/-
  SQUARED EUCLIDEAN DISTANCES BETWEEN THE ROWS OF TWO MATRICES: a tiled kernel against a plain formula.

  For a : [100000, 64] and b : [2048, 64] both programs compute, at (r, q),

      (|a_r|² + |b_q|²) − 2 · ⟨a_r, b_q⟩        (|x_r|² = Σ_k x (r, k)², ⟨a_r, b_q⟩ = Σ_k a (r, k) · b (q, k)).

  The kernel computes |b_q|² once with host operations, then for each of 125 tiles of 800 rows of a takes the lane
  sum of a ∘ a, multiplies the tile by b transposed (after a change of float format, the identity on extended reals)
  and combines the three; the reference takes both sums of squares and one product over the whole matrices and
  broadcasts. Read over the extended reals the two are the same expression, entry by entry, up to 0 + x = x for the
  host sums' initial value: no distributivity or cancellation is used, so the inputs' finiteness is never opened.

  Proof/SqDist.lean states the array of squared distances; Proof/RefDist.lean shows the reference's result is it;
  Proof/Tile.lean reads one tile's result at an entry; Proof/Whole.lean puts the 125 tiles together (each point
  writes its 800 rows, the tiles cover the array) and restates the kernel's run with the result named. The three
  frames are the generated ones (the reference's is its run with the result dropped); the idealization rewrote
  nothing, so there is nothing to preserve.
-/
import proofs.«153480_j36129264894473_2_alg».proof.Defs
import proofs.«153480_j36129264894473_2_alg».proof.Proof.Gen.Kernel
import proofs.«153480_j36129264894473_2_alg».proof.Proof.Gen.Kernel.Skeleton
import proofs.«153480_j36129264894473_2_alg».proof.Proof.Gen.Kernel.Launch
import proofs.«153480_j36129264894473_2_alg».proof.Proof.Gen.Kernel.Points
import proofs.«153480_j36129264894473_2_alg».proof.Proof.Gen.Kernel.Frame
import proofs.«153480_j36129264894473_2_alg».proof.Proof.Gen.KernelIdeal
import proofs.«153480_j36129264894473_2_alg».proof.Proof.Gen.KernelIdeal.Skeleton
import proofs.«153480_j36129264894473_2_alg».proof.Proof.Gen.KernelIdeal.Launch
import proofs.«153480_j36129264894473_2_alg».proof.Proof.Gen.KernelIdeal.Points
import proofs.«153480_j36129264894473_2_alg».proof.Proof.Gen.KernelIdeal.Frame
import proofs.«153480_j36129264894473_2_alg».proof.Proof.Gen.ReferenceIdeal
import proofs.«153480_j36129264894473_2_alg».proof.Proof.Gen.Pre_finite_inputs
import proofs.«153480_j36129264894473_2_alg».proof.Proof.Gen.KernelIdeal.Value
import proofs.«153480_j36129264894473_2_alg».proof.Proof.Gen.ReferenceIdeal.Run
import proofs.«153480_j36129264894473_2_alg».proof.Proof.Gen.ReferenceIdeal.Read
import proofs.«153480_j36129264894473_2_alg».proof.Proof.Whole
import proofs.«153480_j36129264894473_2_alg».proof.Proof.RefDist
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- From memories agreeing on the two matrices both programs end with the array of squared distances of those
    matrices: the kernel by its tiles (Proof/Whole.lean), the reference operation by operation (Proof/RefDist.lean). -/
theorem algebraic : Cert.algebraic_KernelIdeal_ReferenceIdeal := by
  intro m ρ m' ρ' _ hagree
  refine ⟨fun c => Cert.SqDist.sqDist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefDist.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
